-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x369 : S_.BroadcastsInDim S100000x369 (![] : Fin 0 → Fin S100000x369.rank)
  reducesTo_S100000x369_S_d0_1 : S100000x369.ReducesTo [0, 1] S_
  h_S_ : 0 < S_.numel
  bcast_S_S64x369 : S_.BroadcastsInDim S64x369 (![] : Fin 0 → Fin S64x369.rank)
  reducesTo_S64x369_S_d0_1 : S64x369.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x369 .f32) (main_arg1 : FVec F S64x369 .f32) (main_arg2 : FVec F S64 .f32) (main_arg3 : FVec F S2x64 .f32) (main_arg4 : FVec F S2 .f32) : IVec S_ 1 :=
  let main_v0 : FVec F S100000x369 .f32 := Host.absf main_arg0
  let main_cst : FVec F S_ .f32 := constant S_ .f32 0x7F800000#32
  let main_v1 : FVec F S100000x369 .f32 := broadcastInDim S100000x369 ![] bcast_S_S100000x369 main_cst
  let main_v2 : IVec S100000x369 1 := cmpf .olt main_v0 main_v1
  let main_c : IVec S_ 1 := constantI S_ 1 1#1
  let main_v3 : IVec S_ 1 := (fun x v => Host.reduce IntOp.andi x v reducesTo_S100000x369_S_d0_1 h_S_) main_v2 main_c
  let main_v4 : FVec F S64x369 .f32 := Host.absf main_arg1
  let main_cst_0 : FVec F S_ .f32 := constant S_ .f32 0x7F800000#32
  let main_v5 : FVec F S64x369 .f32 := broadcastInDim S64x369 ![] bcast_S_S64x369 main_cst_0
  let main_v6 : IVec S64x369 1 := cmpf .olt main_v4 main_v5
  let main_c_1 : IVec S_ 1 := constantI S_ 1 1#1
  let main_v7 : IVec S_ 1 := (fun x v => Host.reduce IntOp.andi x v reducesTo_S64x369_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_v13 main_v16
-- ==== Kernel.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S369x100000 : Shape := ⟨2, ![369, 100000]⟩
abbrev S64x1 : Shape := ⟨2, ![64, 1]⟩
abbrev S2x1 : Shape := ⟨2, ![2, 1]⟩
abbrev S2x100000 : Shape := ⟨2, ![2, 100000]⟩
abbrev S369x5120 : Shape := ⟨2, ![369, 5120]⟩
abbrev S2x5120 : Shape := ⟨2, ![2, 5120]⟩
abbrev S64x5120 : Shape := ⟨2, ![64, 5120]⟩
abbrev S100000x2 : Shape := ⟨2, ![100000, 2]⟩

abbrev nBuf : Space → Nat
  | .hbm => 10
  | .vmem => 8
  | .smem => 0
  | _ => 0

abbrev bufTy : (tb : Table) → Fin (tcTables nBuf tb) → BufTy
  | .hbm, ⟨0, _⟩ => ⟨S100000x369, .f32⟩
  | .hbm, ⟨1, _⟩ => ⟨S64x369, .f32⟩
  | .hbm, ⟨2, _⟩ => ⟨S64, .f32⟩
  | .hbm, ⟨3, _⟩ => ⟨S2x64, .f32⟩
  | .hbm, ⟨4, _⟩ => ⟨S2, .f32⟩
  | .hbm, ⟨5, _⟩ => ⟨S369x100000, .f32⟩
  | .hbm, ⟨6, _⟩ => ⟨S64x1, .f32⟩
  | .hbm, ⟨7, _⟩ => ⟨S2x1, .f32⟩
  | .hbm, ⟨8, _⟩ => ⟨S2x100000, .f32⟩
  | .hbm, ⟨9, _⟩ => ⟨S100000x2, .f32⟩
  | .local _ .vmem, ⟨0, _⟩ => ⟨S369x5120, .f32⟩
  | .local _ .vmem, ⟨1, _⟩ => ⟨S369x5120, .f32⟩
  | .local _ .vmem, ⟨2, _⟩ => ⟨S64x369, .f32⟩
  | .local _ .vmem, ⟨3, _⟩ => ⟨S64x1, .f32⟩
  | .local _ .vmem, ⟨4, _⟩ => ⟨S2x64, .f32⟩
  | .local _ .vmem, ⟨5, _⟩ => ⟨S2x1, .f32⟩
  | .local _ .vmem, ⟨6, _⟩ => ⟨S2x5120, .f32⟩
  | .local _ .vmem, ⟨7, _⟩ => ⟨S2x5120, .f32⟩
  | _, _ => ⟨S100000x369, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S369x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x369 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S100000x369_S369x100000_1_0 : S100000x369.Transposes [1, 0] S369x100000
  shapeCasts_S64_S64x1 : S64.ShapeCasts S64x1
  shapeCasts_S2_S2x1 : S2.ShapeCasts S2x1
  inb_S64x369_S64x369_0_0 : ∀ a, (![0, 0] : Fin 2 → Nat) a + S64x369.size a ≤ S64x369.size a
  h_S64x369 : 0 < S64x369.numel
  inb_S369x5120_S369x5120_0_0 : ∀ a, (![0, 0] : Fin 2 → Nat) a + S369x5120.size a ≤ S369x5120.size a
  h_S369x5120 : 0 < S369x5120.numel
  shapeCasts_S369x5120_S369x5120 : S369x5120.ShapeCasts S369x5120
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x5120 : S64x1.Broadcasts S64x5120
  inb_S2x64_S2x64_0_0 : ∀ a, (![0, 0] : Fin 2 → Nat) a + S2x64.size a ≤ S2x64.size a
  h_S2x64 : 0 < S2x64.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x5120 : S2x1.Broadcasts S2x5120
  inb_S2x5120_S2x5120_0_0 : ∀ a, (![0, 0] : Fin 2 → Nat) a + S2x5120.size a ≤ S2x5120.size a
  h_S2x5120 : 0 < S2x5120.numel
  transposes_S2x100000_S100000x2_1_0 : S2x100000.Transposes [1, 0] S100000x2
  dot_S64x369_S369x5120_S64x5120_1_0_0_1_n_n_wf : DotDims.WF S64x369 S369x5120 S64x5120 [1] [0] [0] [1] [] []
  dot_S2x64_S64x5120_S2x5120_1_0_0_1_n_n_wf : DotDims.WF S2x64 S64x5120 S2x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S369x5120.size a < S369x100000.size a
  hwx0_0 : ∀ i : grid0.Coords, EltTy.bits .f32 = 32 ∨ (Rect.unit (s := S369x100000) (fun a => cc0_transform_0 i a * S369x5120.size a) (fun a => (Pipeline.Clip.of (cc0_transform_0 i a) (S369x5120.size a) (S369x100000.size a)).extent (S369x5120.size a)) fun a => Pipeline.Clip.inb (Pipeline.Clip.ok_of (hstart0_0 i a))).WholeWords (EltTy.packing .f32)
  hwxs0_0 : ∀ i : grid0.Coords, EltTy.bits .f32 = 32 ∨ (Rect.unit (s := S369x5120) (fun _ => 0) (fun a => (Pipeline.Clip.of (cc0_transform_0 i a) (S369x5120.size a) (S369x100000.size a)).extent (S369x5120.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x369.size a ≤ S64x369.size a
  hwx0_1 : ∀ i : grid0.Coords, EltTy.bits .f32 = 32 ∨ (Rect.block (s := S64x369) S64x369.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2x5120.size a < S2x100000.size a
  hwx0_5 : ∀ i : grid0.Coords, EltTy.bits .f32 = 32 ∨ (Rect.unit (s := S2x100000) (fun a => cc0_transform_5 i a * S2x5120.size a) (fun a => (Pipeline.Clip.of (cc0_transform_5 i a) (S2x5120.size a) (S2x100000.size a)).extent (S2x5120.size a)) fun a => Pipeline.Clip.inb (Pipeline.Clip.ok_of (hstart0_5 i a))).WholeWords (EltTy.packing .f32)
  hwxs0_5 : ∀ i : grid0.Coords, EltTy.bits .f32 = 32 ∨ (Rect.unit (s := S2x5120) (fun _ => 0) (fun a => (Pipeline.Clip.of (cc0_transform_5 i a) (S2x5120.size a) (S2x100000.size a)).extent (S2x5120.size a)) fun a => (Nat.zero_add _).trans_le (Pipeline.Clip.extent_le (Pipeline.Clip.ok_of (hstart0_5 i a)))).WholeWords (EltTy.packing .f32)

variable [Facts₀]

def dot_S64x369_S369x5120_S64x5120_1_0_0_1_n_n : DotDims S64x369 S369x5120 S64x5120 where
  lhsContracting := [1]
  rhsContracting := [0]
  lhsNonContracting := [0]
  rhsNonContracting := [1]
  lhsBatch := []
  rhsBatch := []
  wf := dot_S64x369_S369x5120_S64x5120_1_0_0_1_n_n_wf
def dot_S2x64_S64x5120_S2x5120_1_0_0_1_n_n : DotDims S2x64 S64x5120 S2x5120 where
  lhsContracting := [1]
  rhsContracting := [0]
  lhsNonContracting := [0]
  rhsNonContracting := [1]
  lhsBatch := []
  rhsBatch := []
  wf := dot_S2x64_S64x5120_S2x5120_1_0_0_1_n_n_wf

abbrev win0_0 : Pipeline.Window sig grid0 :=
  Pipeline.Window.ofSpecClip (Memref.whole main_v0) S369x5120.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x369.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S2x5120.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S369x64 : Shape := ⟨2, ![369, 64]⟩
abbrev S100000x64 : Shape := ⟨2, ![100000, 64]⟩
abbrev S1x64 : Shape := ⟨2, ![1, 64]⟩
abbrev S_ : Shape := ⟨0, ![]⟩
abbrev S64x2 : Shape := ⟨2, ![64, 2]⟩
abbrev S100000x2 : Shape := ⟨2, ![100000, 2]⟩
abbrev S1x2 : Shape := ⟨2, ![1, 2]⟩

abbrev nBuf : Space → Nat
  | .hbm => 18
  | .vmem => 0
  | .smem => 0
  | _ => 0

abbrev bufTy : (tb : Table) → Fin (tcTables nBuf tb) → BufTy
  | .hbm, ⟨0, _⟩ => ⟨S100000x369, .f32⟩
  | .hbm, ⟨1, _⟩ => ⟨S64x369, .f32⟩
  | .hbm, ⟨2, _⟩ => ⟨S64, .f32⟩
  | .hbm, ⟨3, _⟩ => ⟨S2x64, .f32⟩
  | .hbm, ⟨4, _⟩ => ⟨S2, .f32⟩
  | .hbm, ⟨5, _⟩ => ⟨S369x64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S64x2, .f32⟩
  | .hbm, ⟨14, _⟩ => ⟨S100000x2, .f32⟩
  | .hbm, ⟨15, _⟩ => ⟨S1x2, .f32⟩
  | .hbm, ⟨16, _⟩ => ⟨S100000x2, .f32⟩
  | .hbm, ⟨17, _⟩ => ⟨S100000x2, .f32⟩
  | _, _ => ⟨S100000x369, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S64x369_S369x64_1_0 : S64x369.Transposes [1, 0] S369x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x369_S369x64_S100000x64_1_0_0_1_n_n_wf : DotDims.WF S100000x369 S369x64 S100000x64 [1] [0] [0] [1] [] []
  dot_S100000x64_S64x2_S100000x2_1_0_0_1_n_n_wf : DotDims.WF S100000x64 S64x2 S100000x2 [1] [0] [0] [1] [] []

variable [Facts₀]

def dot_S100000x369_S369x64_S100000x64_1_0_0_1_n_n : DotDims S100000x369 S369x64 S100000x64 where
  lhsContracting := [1]
  rhsContracting := [0]
  lhsNonContracting := [0]
  rhsNonContracting := [1]
  lhsBatch := []
  rhsBatch := []
  wf := dot_S100000x369_S369x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.BitsBlock.lean ====
import proofs.«149249_g42580305772673_cont_8to1_b_1666_30_alg».proof.Proof.Gen.Kernel.Frame
import proofs.«149249_g42580305772673_cont_8to1_b_1666_30_alg».proof.Proof.Gen.Kernel.Skeleton
import Idealize.ShloMosaic.Lib.Pipeline.Kit
import Idealize.ShloMosaic.Lib.Tactic

set_option maxRecDepth 16384

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

set_option maxHeartbeats 4000000 in
/-- One run of the block function on six staging buffers holding `X0 … X5`: five whole loads (the transposed slab of the
    input, the two weight matrices and the two bias columns), one dead load of the result's buffer, and one whole store.
    The five input buffers are left as found and the result's buffer ends holding the two-layer network of the slab:
    `W_out · max (W1 · X0 + b1, 0) + b_out`, column by column. -/
theorem sound_body (c : Dev nD) (E : Set ℕ) (i : grid0.Coords) (s0 : Fin 2) (s1 s2 s3 s4 : Fin 1) (s5 : Fin 2)
    (X0 : S369x5120.Idx → Elt F .f32) (X1 : S64x369.Idx → Elt F .f32) (X2 : S64x1.Idx → Elt F .f32)
    (X3 : S2x64.Idx → Elt F .f32) (X4 : S2x1.Idx → Elt F .f32) (X5 : S2x5120.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ owns (c : Thread nD τ) (stage0_5 s5) fullShare (k0_pay1 X1 X0 X2 X3 X4)) -∗ K ⟨⟩))
      ⊢ wp frame (wpE (defs₀ (F := F)) 𝒱₀ c none) E
          (cc0__mlp_block i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) K := by
  have hz : (![0, 0] : Fin 2 → Nat) = fun _ => 0 := funext fun a => by fin_cases a <;> rfl
  fin_cases s0 <;> fin_cases s1 <;> fin_cases s2 <;> fin_cases s3 <;> fin_cases s4 <;> fin_cases s5

  · have hr0 : (Memref.whole cc0_stg0_0 : Memref sig .tc _ _ _).view.readAt (Elt F) (Rect.unit (s := S369x5120) ![0, 0] S369x5120.size
        inb_S369x5120_S369x5120_0_0).toLoadRect = id := funext (Memref.readAt_unit_zero (Elt F) cc0_stg0_0 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_0).access (Rect.unit (s := S2x5120) ![0, 0] S2x5120.size inb_S2x5120_S2x5120_0_0)) :
        View sig .tc _ _ _).write (Elt F) f w Finset.univ = w := Memref.write_access_unit_zero_univ (Elt F) cc0_stg5_0 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_0 : Memref sig .tc _ _ _).view.readAt (Elt F) (Rect.unit (s := S369x5120) ![0, 0] S369x5120.size
        inb_S369x5120_S369x5120_0_0).toLoadRect = id := funext (Memref.readAt_unit_zero (Elt F) cc0_stg0_0 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_1).access (Rect.unit (s := S2x5120) ![0, 0] S2x5120.size inb_S2x5120_S2x5120_0_0)) :
        View sig .tc _ _ _).write (Elt F) f w Finset.univ = w := Memref.write_access_unit_zero_univ (Elt F) cc0_stg5_1 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_1 : Memref sig .tc _ _ _).view.readAt (Elt F) (Rect.unit (s := S369x5120) ![0, 0] S369x5120.size
        inb_S369x5120_S369x5120_0_0).toLoadRect = id := funext (Memref.readAt_unit_zero (Elt F) cc0_stg0_1 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_0).access (Rect.unit (s := S2x5120) ![0, 0] S2x5120.size inb_S2x5120_S2x5120_0_0)) :
        View sig .tc _ _ _).write (Elt F) f w Finset.univ = w := Memref.write_access_unit_zero_univ (Elt F) cc0_stg5_0 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_1 : Memref sig .tc _ _ _).view.readAt (Elt F) (Rect.unit (s := S369x5120) ![0, 0] S369x5120.size
        inb_S369x5120_S369x5120_0_0).toLoadRect = id := funext (Memref.readAt_unit_zero (Elt F) cc0_stg0_1 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_1).access (Rect.unit (s := S2x5120) ![0, 0] S2x5120.size inb_S2x5120_S2x5120_0_0)) :
        View sig .tc _ _ _).write (Elt F) f w Finset.univ = w := Memref.write_access_unit_zero_univ (Elt F) cc0_stg5_1 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5

end Cert.Kernel.Body

end
-- ==== Proof.LibClippedFill.lean ====
/-
  A block that overhangs its array is fetched only in its leading part (the part inside the array); the rest of the
  staging buffer keeps what it held. `Window.fill i d g` is the buffer after such a fetch: `g` on the moved part, `d`
  elsewhere. At an index of the moved part the filled buffer does not depend on `d`: what a body computes from rows
  inside the array is the same whatever lay behind them.
-/
import Idealize.ShloMosaic.Lib.Pipeline

noncomputable section

namespace Cert.ClippedFill

open Idealize.ShloMosaic Idealize.ShloMosaic.Pipeline

/-- Two fills of one fetched part with different prior contents agree at every index the fetch moves (every
    coordinate below the cut size of its axis). -/
theorem fill_eq_of_lt {sig : RefSig} {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm := (w.moved_iff i j).mpr h
  unfold Window.fill; rw [dif_pos hm, dif_pos hm]

/-- In particular the moved part of a filled buffer is the fetched part, whatever the prior contents. -/
theorem fill_at_moved {sig : RefSig} {G : Pipeline.Grid} (w : Window sig G) {α : Type} (i : G.Coords) (d : w.block.Idx → α)
    (g : (w.xblock i).Idx → α) (j : (w.xblock i).Idx) : w.fill i d g (w.xinj i j) = g j :=
  w.fill_xinj i d g j

end Cert.ClippedFill

end
-- ==== Proof.BitsData.lean ====
import proofs.«149249_g42580305772673_cont_8to1_b_1666_30_alg».proof.Proof.BitsBlock
import proofs.«149249_g42580305772673_cont_8to1_b_1666_30_alg».proof.Proof.LibClippedFill
import Idealize.ShloMosaic.Lib.ValueIdx

set_option maxRecDepth 16384

noncomputable section

/-! The proof data of the one pipeline, for any reading of the floats.

    The grid has twenty points; point `t` works on columns `5120·t … 5120·t + 5119` of the transposed input (369 rows) and
    of the transposed result (2 rows). Both arrays have 100000 columns, so the last point's block overhangs by 2400 columns:
    its fetch lands only the 2720 columns inside the array, the rest of the staging buffer holding words nothing names, and
    its write-back writes only those 2720 columns. The weights and biases are whole-array blocks fetched once.

    After the body each input buffer holds what it held; the result's buffer holds the network applied to the slab. What
    the body computes in the columns past the array's end is never written back, so the proof data name the result with
    the unnamed words replaced by zeros — which is the same on every column that is written back provided each column of
    the result depends on the same column of the slab only (`ColumnLocal`). -/

namespace Cert.Kernel.Data

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The slab of the transposed input at point `t`: its columns inside the array, zeros past the array's end. -/
def slab (c : Dev nD) (t : Fin cfg0.N) : S369x5120.Idx → Elt F .f32 :=
  win0_0.fill (grid0.coords t) (fun _ => Scalar.ofBits .f32 0#32) (iblk m c 0 t)

/-- The proof data on core `c`: the arrays as the region finds them; after the body the slab's buffer at the slab, the
    weights' and biases' buffers at their arrays, the result's buffer at the network of the slab; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => slab m c t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 1 t) (slab m c t) (iblk m c 2 t) (iblk m c 3 t) (iblk m c 4 t)
  Φ _ := Pipeline.ΦA spec0 c
  q _ := fullShare
  owed _ := 0

/-- The slab's buffer as the body finds it: just fetched, the columns inside the array at the array's, `d` elsewhere. -/
theorem before_0 (c : Dev nD) (t : Fin cfg0.N) (d) :
    (dats m 0 c).before (0 : Fin 6) t d = win0_0.fill (grid0.coords t) d (iblk m c 0 t) := by
  unfold Dat.before; rw [if_pos (fetch0_0 t)]; rfl

/-- The weights and biases are found at their arrays at every point, fetched there or not. -/
theorem before_1 (c : Dev nD) (t : Fin cfg0.N) (d) : (dats m 0 c).before (1 : Fin 6) t d = iblk m c 1 t :=
  before0_1_of m (dats m 0 c) rfl (fun _ => rfl) t d
theorem before_2 (c : Dev nD) (t : Fin cfg0.N) (d) : (dats m 0 c).before (2 : Fin 6) t d = iblk m c 2 t :=
  before0_2_of m (dats m 0 c) rfl (fun _ => rfl) t d
theorem before_3 (c : Dev nD) (t : Fin cfg0.N) (d) : (dats m 0 c).before (3 : Fin 6) t d = iblk m c 3 t :=
  before0_3_of m (dats m 0 c) rfl (fun _ => rfl) t d
theorem before_4 (c : Dev nD) (t : Fin cfg0.N) (d) : (dats m 0 c).before (4 : Fin 6) t d = iblk m c 4 t :=
  before0_4_of m (dats m 0 c) rfl (fun _ => rfl) t d

/-- The result's buffer is written back at every point: the body finds contents nothing names. -/
theorem before_5 (c : Dev nD) (t : Fin cfg0.N) (d) : (dats m 0 c).before (5 : Fin 6) t d = d :=
  (dats m 0 c).before_out_reset 5 rfl t (by
    by_cases h0 : t.val = 0
    · exact .inl h0
    · exact .inr ⟨h0, flush0_5 _⟩) d

/-- How the two clipped windows are cut, decided over the grid: the slab is never cut on its rows, and the slab and the
    result are cut alike on their columns. -/
theorem clip_facts : ∀ t : Fin cfg0.N, win0_0.xsize (grid0.coords t) 0 = 369
    ∧ win0_0.xsize (grid0.coords t) 1 = win0_5.xsize (grid0.coords t) 1 ∧ win0_5.xsize (grid0.coords t) 0 = 2 :=
  (by decide +kernel : ∀ t : Fin grid0.N, _)

variable (F) in
/-- Each column of the stored block depends on the same column of the slab only. -/
def ColumnLocal : Prop :=
  ∀ (X1 : S64x369.Idx → Elt F .f32) (X0 X0' : S369x5120.Idx → Elt F .f32) (X2 : S64x1.Idx → Elt F .f32)
    (X3 : S2x64.Idx → Elt F .f32) (X4 : S2x1.Idx → Elt F .f32) (c : Fin 2) (q : Fin 5120),
    (∀ d : Fin 369, X0 (ix2 d q) = X0' (ix2 d q)) →
      k0_pay1 X1 X0 X2 X3 X4 (ix2 c q) = k0_pay1 X1 X0' X2 X3 X4 (ix2 c q)

/-- So the columns written back do not depend on what the slab's buffer held past the array's end. -/
theorem stored_cut_eq (hloc : ColumnLocal F) (t : Fin cfg0.N) (X1 : S64x369.Idx → Elt F .f32)
    (d0 d0' : S369x5120.Idx → Elt F .f32) (g : (win0_0.xblock (grid0.coords t)).Idx → Elt F .f32)
    (X2 : S64x1.Idx → Elt F .f32) (X3 : S2x64.Idx → Elt F .f32) (X4 : S2x1.Idx → Elt F .f32) :
    win0_5.cut (grid0.coords t) (k0_pay1 X1 (win0_0.fill (grid0.coords t) d0 g) X2 X3 X4)
      = win0_5.cut (grid0.coords t) (k0_pay1 X1 (win0_0.fill (grid0.coords t) d0' g) X2 X3 X4) := by
  obtain ⟨e0, e1, e2⟩ := clip_facts t
  funext j
  have hj0 : (j 0).val < 2 := by
    have h : (j 0).val < win0_5.xsize (grid0.coords t) 0 := (j 0).isLt
    rw [e2] at h; exact h
  have hj1 : (j 1).val < 5120 := Nat.lt_of_lt_of_le (j 1).isLt (win0_5.xsize_le (grid0.coords t) 1)
  have hx : win0_5.xinj (grid0.coords t) j = ix2 (⟨(j 0).val, hj0⟩ : Fin 2) (⟨(j 1).val, hj1⟩ : Fin 5120) :=
    funext fun a => Fin.ext (by match a with | ⟨0, _⟩ => rfl | ⟨1, _⟩ => rfl)
  show k0_pay1 X1 _ X2 X3 X4 (win0_5.xinj (grid0.coords t) j) = k0_pay1 X1 _ X2 X3 X4 (win0_5.xinj (grid0.coords t) j)
  rw [hx]
  refine hloc _ _ _ _ _ _ _ _ fun d => ?_
  refine Cert.ClippedFill.fill_eq_of_lt win0_0 (grid0.coords t) d0 d0' g _ fun a => ?_
  match a with
  | ⟨0, _⟩ => show d.val < win0_0.xsize (grid0.coords t) 0; rw [e0]; exact d.isLt
  | ⟨1, _⟩ => show (j 1).val < win0_0.xsize (grid0.coords t) 1; rw [e1]; exact (j 1).isLt

end Cert.Kernel.Data

end
-- ==== Proof.BitsObligation.lean ====
import proofs.«149249_g42580305772673_cont_8to1_b_1666_30_alg».proof.Proof.BitsData

set_option maxRecDepth 16384

noncomputable section

/-! The body obligation: at every grid point the block function, run on the staging buffers as the pipeline hands them
    over, leaves the input buffers as found and the result's buffer at the network of the slab. Stated twice: naming the
    result on the columns that are written back (which needs each column of the result to depend on its own column of the
    slab only), and forgetting the result's buffer altogether (enough for a claim that says nothing of the result). -/

namespace Cert.Kernel.Data

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The result's window, forgotten. -/
def forget5 : Fin 6 → Bool := fun w => w.val == 5

/-- Naming the result: every buffer is handed back as the proof data say, the two clipped ones on the columns inside the
    array. -/
theorem body_obligation (hloc : ColumnLocal F) (c : Dev nD) :
    BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_body (F := F) c Set.univ (grid0.coords t) (cfg0.slots t 0) (cfg0.slots t 1) (cfg0.slots t 2)
    (cfg0.slots t 3) (cfg0.slots t 4) (cfg0.slots t 5)
    (win0_0.fill (grid0.coords t) d0 (iblk m c 0 t)) (iblk m c 1 t) (iblk m c 2 t) (iblk m c 3 t) (iblk m c 4 t) d5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  iintro ⟨H0, H1, H2, H3, H4, H5⟩
  isplitl [HΦ]
  · iexact HΦ
  isplitl [Ho]
  · iexact Ho
  have h0 : win0_0.cut (grid0.coords t) (slab m c t) = iblk m c 0 t := win0_0.cut_fill _ _ _
  have h5 : win0_5.fill (α := Elt F .f32) (grid0.coords t)
        (k0_pay1 (iblk m c 1 t) (win0_0.fill (grid0.coords t) d0 (iblk m c 0 t)) (iblk m c 2 t) (iblk m c 3 t) (iblk m c 4 t))
        (win0_5.cut (α := Elt F .f32) (grid0.coords t) (k0_pay1 (iblk m c 1 t) (slab m c t) (iblk m c 2 t) (iblk m c 3 t) (iblk m c 4 t)))
      = k0_pay1 (iblk m c 1 t) (win0_0.fill (grid0.coords t) d0 (iblk m c 0 t)) (iblk m c 2 t) (iblk m c 3 t) (iblk m c 4 t) :=
    win0_5.fill_congr_cut (grid0.coords t)
      (stored_cut_eq hloc t (iblk m c 1 t) d0 (fun _ => Scalar.ofBits .f32 0#32) (iblk m c 0 t) (iblk m c 2 t) (iblk m c 3 t) (iblk m c 4 t))
  isplitl [H0]
  · iexists d0
    change _ ⊢ owns (c : Thread nD τ) (stage0_0 (cfg0.slots t 0)) fullShare
      (win0_0.fill (grid0.coords t) d0 (win0_0.cut (grid0.coords t) (slab m c t)))
    rw [h0]; try iexact H0
  isplitl [H1]
  · iexact H1
  isplitl [H2]
  · iexact H2
  isplitl [H3]
  · iexact H3
  isplitl [H4]
  · iexact H4
  · iexists k0_pay1 (iblk m c 1 t) (win0_0.fill (grid0.coords t) d0 (iblk m c 0 t)) (iblk m c 2 t) (iblk m c 3 t) (iblk m c 4 t)
    change _ ⊢ owns (c : Thread nD τ) (stage0_5 (cfg0.slots t 5)) fullShare
      (win0_5.fill (α := Elt F .f32) (grid0.coords t)
        (k0_pay1 (iblk m c 1 t) (win0_0.fill (grid0.coords t) d0 (iblk m c 0 t)) (iblk m c 2 t) (iblk m c 3 t) (iblk m c 4 t))
        (win0_5.cut (α := Elt F .f32) (grid0.coords t) (k0_pay1 (iblk m c 1 t) (slab m c t) (iblk m c 2 t) (iblk m c 3 t) (iblk m c 4 t))))
    rw [h5]; try iexact H5

/-- Forgetting the result: its buffer is handed over at some contents and handed back at some contents. -/
theorem body_obligation_forget (c : Dev nD) :
    BodyObligationLoose (dats m 0 c) (defs₀ (F := F)) 𝒱₀ () Set.univ forget5 := fun t => by
  rw [bigSep_W0, bigSep_W0]
  simp only [forget5, show ((0 : Fin 6).val == 5) = false from rfl, show ((1 : Fin 6).val == 5) = false from rfl,
    show ((2 : Fin 6).val == 5) = false from rfl, show ((3 : Fin 6).val == 5) = false from rfl,
    show ((4 : Fin 6).val == 5) = false from rfl, show ((5 : Fin 6).val == 5) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (sound_body (F := F) c Set.univ (grid0.coords t) (cfg0.slots t 0) (cfg0.slots t 1) (cfg0.slots t 2)
    (cfg0.slots t 3) (cfg0.slots t 4) (cfg0.slots t 5)
    (win0_0.fill (grid0.coords t) d0 (iblk m c 0 t)) (iblk m c 1 t) (iblk m c 2 t) (iblk m c 3 t) (iblk m c 4 t) d5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  iintro ⟨H0, H1, H2, H3, H4, H5⟩
  isplitl [HΦ]
  · iexact HΦ
  isplitl [Ho]
  · iexact Ho
  have h0 : win0_0.cut (grid0.coords t) (slab m c t) = iblk m c 0 t := win0_0.cut_fill _ _ _
  isplitl [H0]
  · iexists d0
    change _ ⊢ owns (c : Thread nD τ) (stage0_0 (cfg0.slots t 0)) fullShare
      (win0_0.fill (grid0.coords t) d0 (win0_0.cut (grid0.coords t) (slab m c t)))
    rw [h0]; try iexact H0
  isplitl [H1]
  · iexact H1
  isplitl [H2]
  · iexact H2
  isplitl [H3]
  · iexact H3
  isplitl [H4]
  · iexact H4
  · iexists _
    iexact H5

end Cert.Kernel.Data

end
-- ==== Proof.BitsFrame.lean ====
import proofs.«149249_g42580305772673_cont_8to1_b_1666_30_alg».proof.Proof.BitsObligation
import Idealize.ShloMosaic.Lib.Pipeline.FrameSuffix

set_option maxRecDepth 16384

noncomputable section

/-! The frame of the program as printed, for any reading of the floats: every weakly fair execution terminates, nothing
    faults, and the five argument arrays end as launched. The result's staging buffer is forgotten — at the bit patterns
    a matrix product is not known to be computed column by column, so what the body leaves past the array's end in the
    last block cannot be named, and the frame does not need it. Of the buffer the transposition after the region writes,
    nothing is said either. -/

namespace Cert.Kernel.Run

open Cert.Kernel Cert.Kernel.Gen Cert.Kernel.Body Cert.Kernel.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

variable (m : (ℓ : Loc nD τ sig) → Buf (Elt F) ℓ) (ρ : Dev nD → PrngReg)

/-- The buffer the line after the region writes: the result, transposed back. -/
def T0 : Finset (Ref sig .tc) := {main_v4}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- The run, the result's window forgotten: every input array of the pipeline ends as the region found it, and every other
    buffer the later line does not write ends as the region found it. -/
theorem run_main : θ_run defs (onTc (τ := τ) (main (F := F))) (s₀ m ρ)
    (Pipeline.RDat.FramePostR (cfgs 0) (fun c => (dats m 0 c).toRForget forget5) T0 (V m)) :=
  Pipeline.RDat.θ_run_frame_around_T cfgs (0 : Fin 1) launch0 defs₀ 𝒱₀ (fun c => (dats m 0 c).toRForget forget5) T0 m ρ main
    (hbody := fun c => (body_obligation_forget m c).toRForget)
    (hshare := fun c => ((dats m 0 c).toRForget forget5).share_full fun _ => rfl)
    (howed := fun _ _ => rfl) (V₀ := V0 m) (opss := [hostOps1]) (hsub := sfx_sub) (hfresh := sfx_fresh) (hkeep := sfx_keeps)
    (hT := sfx_writes) (hmain := hmain m 𝒱₀) (hA := fun _ _ => rfl) (hΦ := fun _ _ => rfl)

/-- The frame: the weights' arrays are inputs of the pipeline, never written; the sample array and the two bias vectors
    are staged by no window and written by no line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Finset.mem_sdiff.mpr ⟨Pipeline.mem_restRefs_of main_arg0 (by decide) (by decide), by decide⟩)).trans (V_main_arg0 m c),
      (Eq.mp (congrFun (((dats m 0 c).toRForget forget5).ArrAt_in 1 rfl _) _) ((h c).1 1)).trans (V_main_arg1 m c),
      ((h c).2 main_arg2 (Finset.mem_sdiff.mpr ⟨Pipeline.mem_restRefs_of main_arg2 (by decide) (by decide), by decide⟩)).trans (V_main_arg2 m c),
      (Eq.mp (congrFun (((dats m 0 c).toRForget forget5).ArrAt_in 3 rfl _) _) ((h c).1 3)).trans (V_main_arg3 m c),
      ((h c).2 main_arg4 (Finset.mem_sdiff.mpr ⟨Pipeline.mem_restRefs_of main_arg4 (by decide) (by decide), by decide⟩)).trans (V_main_arg4 m c)⟩)
    (run_main m ρ)

end Cert.Kernel.Run

end
-- ==== Proof.IdealBlock.lean ====
import proofs.«149249_g42580305772673_cont_8to1_b_1666_30_alg».proof.Proof.Gen.KernelIdeal.Frame
import proofs.«149249_g42580305772673_cont_8to1_b_1666_30_alg».proof.Proof.Gen.KernelIdeal.Skeleton
import Idealize.ShloMosaic.Lib.Pipeline.Kit
import Idealize.ShloMosaic.Lib.Tactic

set_option maxRecDepth 16384

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

set_option maxHeartbeats 4000000 in
/-- One run of the block function on six staging buffers holding `X0 … X5`: five whole loads (the transposed slab of the
    input, the two weight matrices and the two bias columns), one dead load of the result's buffer, and one whole store.
    The five input buffers are left as found and the result's buffer ends holding the two-layer network of the slab:
    `W_out · max (W1 · X0 + b1, 0) + b_out`, column by column. -/
theorem sound_body (c : Dev nD) (E : Set ℕ) (i : grid0.Coords) (s0 : Fin 2) (s1 s2 s3 s4 : Fin 1) (s5 : Fin 2)
    (X0 : S369x5120.Idx → Elt F .f32) (X1 : S64x369.Idx → Elt F .f32) (X2 : S64x1.Idx → Elt F .f32)
    (X3 : S2x64.Idx → Elt F .f32) (X4 : S2x1.Idx → Elt F .f32) (X5 : S2x5120.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ owns (c : Thread nD τ) (stage0_5 s5) fullShare (k0_pay1 X1 X0 X2 X3 X4)) -∗ K ⟨⟩))
      ⊢ wp frame (wpE (defs₀ (F := F)) 𝒱₀ c none) E
          (cc0__mlp_block i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) K := by
  have hz : (![0, 0] : Fin 2 → Nat) = fun _ => 0 := funext fun a => by fin_cases a <;> rfl
  fin_cases s0 <;> fin_cases s1 <;> fin_cases s2 <;> fin_cases s3 <;> fin_cases s4 <;> fin_cases s5

  · have hr0 : (Memref.whole cc0_stg0_0 : Memref sig .tc _ _ _).view.readAt (Elt F) (Rect.unit (s := S369x5120) ![0, 0] S369x5120.size
        inb_S369x5120_S369x5120_0_0).toLoadRect = id := funext (Memref.readAt_unit_zero (Elt F) cc0_stg0_0 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_0).access (Rect.unit (s := S2x5120) ![0, 0] S2x5120.size inb_S2x5120_S2x5120_0_0)) :
        View sig .tc _ _ _).write (Elt F) f w Finset.univ = w := Memref.write_access_unit_zero_univ (Elt F) cc0_stg5_0 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_0 : Memref sig .tc _ _ _).view.readAt (Elt F) (Rect.unit (s := S369x5120) ![0, 0] S369x5120.size
        inb_S369x5120_S369x5120_0_0).toLoadRect = id := funext (Memref.readAt_unit_zero (Elt F) cc0_stg0_0 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_1).access (Rect.unit (s := S2x5120) ![0, 0] S2x5120.size inb_S2x5120_S2x5120_0_0)) :
        View sig .tc _ _ _).write (Elt F) f w Finset.univ = w := Memref.write_access_unit_zero_univ (Elt F) cc0_stg5_1 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_1 : Memref sig .tc _ _ _).view.readAt (Elt F) (Rect.unit (s := S369x5120) ![0, 0] S369x5120.size
        inb_S369x5120_S369x5120_0_0).toLoadRect = id := funext (Memref.readAt_unit_zero (Elt F) cc0_stg0_1 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_0).access (Rect.unit (s := S2x5120) ![0, 0] S2x5120.size inb_S2x5120_S2x5120_0_0)) :
        View sig .tc _ _ _).write (Elt F) f w Finset.univ = w := Memref.write_access_unit_zero_univ (Elt F) cc0_stg5_0 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5
  · have hr0 : (Memref.whole cc0_stg0_1 : Memref sig .tc _ _ _).view.readAt (Elt F) (Rect.unit (s := S369x5120) ![0, 0] S369x5120.size
        inb_S369x5120_S369x5120_0_0).toLoadRect = id := funext (Memref.readAt_unit_zero (Elt F) cc0_stg0_1 hz _)
    have hr1 : (Memref.whole cc0_stg1_0 : Memref sig .tc _ _ _).view.readAt (Elt F) (Rect.unit (s := S64x369) ![0, 0] S64x369.size
        inb_S64x369_S64x369_0_0).toLoadRect = id := funext (Memref.readAt_unit_zero (Elt F) cc0_stg1_0 hz _)
    have hr2 : (Memref.whole cc0_stg2_0 : Memref sig .tc _ _ _).view.readAt (Elt F) (Rect.unit (s := S64x1) ![0, 0] S64x1.size
        inb_S64x1_S64x1_0_0).toLoadRect = id := funext (Memref.readAt_unit_zero (Elt F) cc0_stg2_0 hz _)
    have hr3 : (Memref.whole cc0_stg3_0 : Memref sig .tc _ _ _).view.readAt (Elt F) (Rect.unit (s := S2x64) ![0, 0] S2x64.size
        inb_S2x64_S2x64_0_0).toLoadRect = id := funext (Memref.readAt_unit_zero (Elt F) cc0_stg3_0 hz _)
    have hr4 : (Memref.whole cc0_stg4_0 : Memref sig .tc _ _ _).view.readAt (Elt F) (Rect.unit (s := S2x1) ![0, 0] S2x1.size
        inb_S2x1_S2x1_0_0).toLoadRect = id := funext (Memref.readAt_unit_zero (Elt F) cc0_stg4_0 hz _)
    have hw5 : ∀ f w, (((Memref.whole cc0_stg5_1).access (Rect.unit (s := S2x5120) ![0, 0] S2x5120.size inb_S2x5120_S2x5120_0_0)) :
        View sig .tc _ _ _).write (Elt F) f w Finset.univ = w := Memref.write_access_unit_zero_univ (Elt F) cc0_stg5_1 hz _
    simp only [owns_whole_eq, cc0__mlp_block_eq_skeleton]; unfold cc0__mlp_block_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    rw [hr0, hr1, hr2, hr3, hr4, hw5]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    · iexists k0_pay1 f1 f0 f2 f3 f4; isplitr; · ipureintro; rw [hf0, hf1, hf2, hf3, hf4]
      iexact H5

end Cert.KernelIdeal.Body

end
-- ==== Proof.IdealData.lean ====
import proofs.«149249_g42580305772673_cont_8to1_b_1666_30_alg».proof.Proof.IdealBlock
import proofs.«149249_g42580305772673_cont_8to1_b_1666_30_alg».proof.Proof.LibClippedFill
import Idealize.ShloMosaic.Lib.ValueIdx

set_option maxRecDepth 16384

noncomputable section

/-! The proof data of the one pipeline, for any reading of the floats.

    The grid has twenty points; point `t` works on columns `5120·t … 5120·t + 5119` of the transposed input (369 rows) and
    of the transposed result (2 rows). Both arrays have 100000 columns, so the last point's block overhangs by 2400 columns:
    its fetch lands only the 2720 columns inside the array, the rest of the staging buffer holding words nothing names, and
    its write-back writes only those 2720 columns. The weights and biases are whole-array blocks fetched once.

    After the body each input buffer holds what it held; the result's buffer holds the network applied to the slab. What
    the body computes in the columns past the array's end is never written back, so the proof data name the result with
    the unnamed words replaced by zeros — which is the same on every column that is written back provided each column of
    the result depends on the same column of the slab only (`ColumnLocal`). -/

namespace Cert.KernelIdeal.Data

open Cert.KernelIdeal Cert.KernelIdeal.Gen Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The slab of the transposed input at point `t`: its columns inside the array, zeros past the array's end. -/
def slab (c : Dev nD) (t : Fin cfg0.N) : S369x5120.Idx → Elt F .f32 :=
  win0_0.fill (grid0.coords t) (fun _ => Scalar.ofBits .f32 0#32) (iblk m c 0 t)

/-- The proof data on core `c`: the arrays as the region finds them; after the body the slab's buffer at the slab, the
    weights' and biases' buffers at their arrays, the result's buffer at the network of the slab; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => slab m c t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 1 t) (slab m c t) (iblk m c 2 t) (iblk m c 3 t) (iblk m c 4 t)
  Φ _ := Pipeline.ΦA spec0 c
  q _ := fullShare
  owed _ := 0

/-- The slab's buffer as the body finds it: just fetched, the columns inside the array at the array's, `d` elsewhere. -/
theorem before_0 (c : Dev nD) (t : Fin cfg0.N) (d) :
    (dats m 0 c).before (0 : Fin 6) t d = win0_0.fill (grid0.coords t) d (iblk m c 0 t) := by
  unfold Dat.before; rw [if_pos (fetch0_0 t)]; rfl

/-- The weights and biases are found at their arrays at every point, fetched there or not. -/
theorem before_1 (c : Dev nD) (t : Fin cfg0.N) (d) : (dats m 0 c).before (1 : Fin 6) t d = iblk m c 1 t :=
  before0_1_of m (dats m 0 c) rfl (fun _ => rfl) t d
theorem before_2 (c : Dev nD) (t : Fin cfg0.N) (d) : (dats m 0 c).before (2 : Fin 6) t d = iblk m c 2 t :=
  before0_2_of m (dats m 0 c) rfl (fun _ => rfl) t d
theorem before_3 (c : Dev nD) (t : Fin cfg0.N) (d) : (dats m 0 c).before (3 : Fin 6) t d = iblk m c 3 t :=
  before0_3_of m (dats m 0 c) rfl (fun _ => rfl) t d
theorem before_4 (c : Dev nD) (t : Fin cfg0.N) (d) : (dats m 0 c).before (4 : Fin 6) t d = iblk m c 4 t :=
  before0_4_of m (dats m 0 c) rfl (fun _ => rfl) t d

/-- The result's buffer is written back at every point: the body finds contents nothing names. -/
theorem before_5 (c : Dev nD) (t : Fin cfg0.N) (d) : (dats m 0 c).before (5 : Fin 6) t d = d :=
  (dats m 0 c).before_out_reset 5 rfl t (by
    by_cases h0 : t.val = 0
    · exact .inl h0
    · exact .inr ⟨h0, flush0_5 _⟩) d

/-- How the two clipped windows are cut, decided over the grid: the slab is never cut on its rows, and the slab and the
    result are cut alike on their columns. -/
theorem clip_facts : ∀ t : Fin cfg0.N, win0_0.xsize (grid0.coords t) 0 = 369
    ∧ win0_0.xsize (grid0.coords t) 1 = win0_5.xsize (grid0.coords t) 1 ∧ win0_5.xsize (grid0.coords t) 0 = 2 :=
  (by decide +kernel : ∀ t : Fin grid0.N, _)

variable (F) in
/-- Each column of the stored block depends on the same column of the slab only. -/
def ColumnLocal : Prop :=
  ∀ (X1 : S64x369.Idx → Elt F .f32) (X0 X0' : S369x5120.Idx → Elt F .f32) (X2 : S64x1.Idx → Elt F .f32)
    (X3 : S2x64.Idx → Elt F .f32) (X4 : S2x1.Idx → Elt F .f32) (c : Fin 2) (q : Fin 5120),
    (∀ d : Fin 369, X0 (ix2 d q) = X0' (ix2 d q)) →
      k0_pay1 X1 X0 X2 X3 X4 (ix2 c q) = k0_pay1 X1 X0' X2 X3 X4 (ix2 c q)

/-- So the columns written back do not depend on what the slab's buffer held past the array's end. -/
theorem stored_cut_eq (hloc : ColumnLocal F) (t : Fin cfg0.N) (X1 : S64x369.Idx → Elt F .f32)
    (d0 d0' : S369x5120.Idx → Elt F .f32) (g : (win0_0.xblock (grid0.coords t)).Idx → Elt F .f32)
    (X2 : S64x1.Idx → Elt F .f32) (X3 : S2x64.Idx → Elt F .f32) (X4 : S2x1.Idx → Elt F .f32) :
    win0_5.cut (grid0.coords t) (k0_pay1 X1 (win0_0.fill (grid0.coords t) d0 g) X2 X3 X4)
      = win0_5.cut (grid0.coords t) (k0_pay1 X1 (win0_0.fill (grid0.coords t) d0' g) X2 X3 X4) := by
  obtain ⟨e0, e1, e2⟩ := clip_facts t
  funext j
  have hj0 : (j 0).val < 2 := by
    have h : (j 0).val < win0_5.xsize (grid0.coords t) 0 := (j 0).isLt
    rw [e2] at h; exact h
  have hj1 : (j 1).val < 5120 := Nat.lt_of_lt_of_le (j 1).isLt (win0_5.xsize_le (grid0.coords t) 1)
  have hx : win0_5.xinj (grid0.coords t) j = ix2 (⟨(j 0).val, hj0⟩ : Fin 2) (⟨(j 1).val, hj1⟩ : Fin 5120) :=
    funext fun a => Fin.ext (by match a with | ⟨0, _⟩ => rfl | ⟨1, _⟩ => rfl)
  show k0_pay1 X1 _ X2 X3 X4 (win0_5.xinj (grid0.coords t) j) = k0_pay1 X1 _ X2 X3 X4 (win0_5.xinj (grid0.coords t) j)
  rw [hx]
  refine hloc _ _ _ _ _ _ _ _ fun d => ?_
  refine Cert.ClippedFill.fill_eq_of_lt win0_0 (grid0.coords t) d0 d0' g _ fun a => ?_
  match a with
  | ⟨0, _⟩ => show d.val < win0_0.xsize (grid0.coords t) 0; rw [e0]; exact d.isLt
  | ⟨1, _⟩ => show (j 1).val < win0_0.xsize (grid0.coords t) 1; rw [e1]; exact (j 1).isLt

end Cert.KernelIdeal.Data

end
-- ==== Proof.IdealObligation.lean ====
import proofs.«149249_g42580305772673_cont_8to1_b_1666_30_alg».proof.Proof.IdealData

set_option maxRecDepth 16384

noncomputable section

/-! The body obligation: at every grid point the block function, run on the staging buffers as the pipeline hands them
    over, leaves the input buffers as found and the result's buffer at the network of the slab. Stated twice: naming the
    result on the columns that are written back (which needs each column of the result to depend on its own column of the
    slab only), and forgetting the result's buffer altogether (enough for a claim that says nothing of the result). -/

namespace Cert.KernelIdeal.Data

open Cert.KernelIdeal Cert.KernelIdeal.Gen Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The result's window, forgotten. -/
def forget5 : Fin 6 → Bool := fun w => w.val == 5

/-- Naming the result: every buffer is handed back as the proof data say, the two clipped ones on the columns inside the
    array. -/
theorem body_obligation (hloc : ColumnLocal F) (c : Dev nD) :
    BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_body (F := F) c Set.univ (grid0.coords t) (cfg0.slots t 0) (cfg0.slots t 1) (cfg0.slots t 2)
    (cfg0.slots t 3) (cfg0.slots t 4) (cfg0.slots t 5)
    (win0_0.fill (grid0.coords t) d0 (iblk m c 0 t)) (iblk m c 1 t) (iblk m c 2 t) (iblk m c 3 t) (iblk m c 4 t) d5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  iintro ⟨H0, H1, H2, H3, H4, H5⟩
  isplitl [HΦ]
  · iexact HΦ
  isplitl [Ho]
  · iexact Ho
  have h0 : win0_0.cut (grid0.coords t) (slab m c t) = iblk m c 0 t := win0_0.cut_fill _ _ _
  have h5 : win0_5.fill (α := Elt F .f32) (grid0.coords t)
        (k0_pay1 (iblk m c 1 t) (win0_0.fill (grid0.coords t) d0 (iblk m c 0 t)) (iblk m c 2 t) (iblk m c 3 t) (iblk m c 4 t))
        (win0_5.cut (α := Elt F .f32) (grid0.coords t) (k0_pay1 (iblk m c 1 t) (slab m c t) (iblk m c 2 t) (iblk m c 3 t) (iblk m c 4 t)))
      = k0_pay1 (iblk m c 1 t) (win0_0.fill (grid0.coords t) d0 (iblk m c 0 t)) (iblk m c 2 t) (iblk m c 3 t) (iblk m c 4 t) :=
    win0_5.fill_congr_cut (grid0.coords t)
      (stored_cut_eq hloc t (iblk m c 1 t) d0 (fun _ => Scalar.ofBits .f32 0#32) (iblk m c 0 t) (iblk m c 2 t) (iblk m c 3 t) (iblk m c 4 t))
  isplitl [H0]
  · iexists d0
    change _ ⊢ owns (c : Thread nD τ) (stage0_0 (cfg0.slots t 0)) fullShare
      (win0_0.fill (grid0.coords t) d0 (win0_0.cut (grid0.coords t) (slab m c t)))
    rw [h0]; try iexact H0
  isplitl [H1]
  · iexact H1
  isplitl [H2]
  · iexact H2
  isplitl [H3]
  · iexact H3
  isplitl [H4]
  · iexact H4
  · iexists k0_pay1 (iblk m c 1 t) (win0_0.fill (grid0.coords t) d0 (iblk m c 0 t)) (iblk m c 2 t) (iblk m c 3 t) (iblk m c 4 t)
    change _ ⊢ owns (c : Thread nD τ) (stage0_5 (cfg0.slots t 5)) fullShare
      (win0_5.fill (α := Elt F .f32) (grid0.coords t)
        (k0_pay1 (iblk m c 1 t) (win0_0.fill (grid0.coords t) d0 (iblk m c 0 t)) (iblk m c 2 t) (iblk m c 3 t) (iblk m c 4 t))
        (win0_5.cut (α := Elt F .f32) (grid0.coords t) (k0_pay1 (iblk m c 1 t) (slab m c t) (iblk m c 2 t) (iblk m c 3 t) (iblk m c 4 t))))
    rw [h5]; try iexact H5

/-- Forgetting the result: its buffer is handed over at some contents and handed back at some contents. -/
theorem body_obligation_forget (c : Dev nD) :
    BodyObligationLoose (dats m 0 c) (defs₀ (F := F)) 𝒱₀ () Set.univ forget5 := fun t => by
  rw [bigSep_W0, bigSep_W0]
  simp only [forget5, show ((0 : Fin 6).val == 5) = false from rfl, show ((1 : Fin 6).val == 5) = false from rfl,
    show ((2 : Fin 6).val == 5) = false from rfl, show ((3 : Fin 6).val == 5) = false from rfl,
    show ((4 : Fin 6).val == 5) = false from rfl, show ((5 : Fin 6).val == 5) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (sound_body (F := F) c Set.univ (grid0.coords t) (cfg0.slots t 0) (cfg0.slots t 1) (cfg0.slots t 2)
    (cfg0.slots t 3) (cfg0.slots t 4) (cfg0.slots t 5)
    (win0_0.fill (grid0.coords t) d0 (iblk m c 0 t)) (iblk m c 1 t) (iblk m c 2 t) (iblk m c 3 t) (iblk m c 4 t) d5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  iintro ⟨H0, H1, H2, H3, H4, H5⟩
  isplitl [HΦ]
  · iexact HΦ
  isplitl [Ho]
  · iexact Ho
  have h0 : win0_0.cut (grid0.coords t) (slab m c t) = iblk m c 0 t := win0_0.cut_fill _ _ _
  isplitl [H0]
  · iexists d0
    change _ ⊢ owns (c : Thread nD τ) (stage0_0 (cfg0.slots t 0)) fullShare
      (win0_0.fill (grid0.coords t) d0 (win0_0.cut (grid0.coords t) (slab m c t)))
    rw [h0]; try iexact H0
  isplitl [H1]
  · iexact H1
  isplitl [H2]
  · iexact H2
  isplitl [H3]
  · iexact H3
  isplitl [H4]
  · iexact H4
  · iexists _
    iexact H5

end Cert.KernelIdeal.Data

end
-- ==== Proof.Network.lean ====
/-
  A two-layer perceptron applied to one sample, over the extended reals.

  For a sample `col : Fin 369 → EReal`, first-layer weights `W1` (64 × 369) and bias `b1`, output weights `Wo` (2 × 64)
  and bias `bo`, the value of class `c` is
      (Σ_h Wo(c,h) · max (Σ_d W1(h,d) · col(d) + b1(h), 0)) + bo(c).
  The two programs compared in this directory both compute it: one with the weights on the left of every product (the
  whole computation transposed), the other with the sample on the left. Multiplication of extended reals is
  commutative, and a finite sum may be taken term by term, so the two arrangements are the same number; no
  finiteness of the data is needed. The zero of the rectifier is kept as the literal both programs write.
-/
import Idealize.ShloMosaic.PureOps.Ideal
import Idealize.ShloMosaic.Lib.ValueIdx

noncomputable section

namespace Cert.Network

open Idealize.ShloMosaic Idealize.ShloMosaic.ValueIdx

/-- The rectifier's threshold: the word `0x00000000` read as a float. -/
abbrev zeroLit : EReal := Ideal.ofBits .f32 0x00000000#32

/-- The network's value of class `c` on the sample `col`, weights on the left of each product. -/
def colNet (W1 : (⟨2, ![64, 369]⟩ : Shape).Idx → EReal) (b1 : Fin 64 → EReal)
    (Wo : (⟨2, ![2, 64]⟩ : Shape).Idx → EReal) (bo : Fin 2 → EReal) (col : Fin 369 → EReal) (c : Fin 2) : EReal :=
  (∑ h : Fin 64, Wo (ix2 c h) * max ((∑ d : Fin 369, W1 (ix2 h d) * col d) + b1 h) zeroLit) + bo c

/-- The same value with the sample on the left of each product. -/
theorem colNet_sample_left (W1 : (⟨2, ![64, 369]⟩ : Shape).Idx → EReal) (b1 : Fin 64 → EReal)
    (Wo : (⟨2, ![2, 64]⟩ : Shape).Idx → EReal) (bo : Fin 2 → EReal) (col : Fin 369 → EReal) (c : Fin 2) :
    (∑ h : Fin 64, max ((∑ d : Fin 369, col d * W1 (ix2 h d)) + b1 h) zeroLit * Wo (ix2 c h)) + bo c
      = colNet W1 b1 Wo bo col c := by
  unfold colNet
  refine congrArg (· + bo c) (Finset.sum_congr rfl fun h _ => ?_)
  rw [mul_comm]
  refine congrArg (fun s => Wo (ix2 c h) * max (s + b1 h) zeroLit) (Finset.sum_congr rfl fun d _ => mul_comm _ _)

/-- The value depends on the sample only: two samples equal entry by entry give the same value. -/
theorem colNet_congr (W1 : (⟨2, ![64, 369]⟩ : Shape).Idx → EReal) (b1 : Fin 64 → EReal)
    (Wo : (⟨2, ![2, 64]⟩ : Shape).Idx → EReal) (bo : Fin 2 → EReal) {col col' : Fin 369 → EReal} (h : ∀ d, col d = col' d)
    (c : Fin 2) : colNet W1 b1 Wo bo col c = colNet W1 b1 Wo bo col' c := by
  rw [show col = col' from funext h]

/-- The network over the whole batch: entry `(n, c)` of the result is class `c` of sample `n`, the sample being row `n` of
    `x` and the biases plain vectors. -/
def net (x : (⟨2, ![100000, 369]⟩ : Shape).Idx → EReal) (W1 : (⟨2, ![64, 369]⟩ : Shape).Idx → EReal)
    (b1 : (⟨1, ![64]⟩ : Shape).Idx → EReal) (Wo : (⟨2, ![2, 64]⟩ : Shape).Idx → EReal) (bo : (⟨1, ![2]⟩ : Shape).Idx → EReal) :
    (⟨2, ![100000, 2]⟩ : Shape).Idx → EReal :=
  fun i => colNet W1 (fun h => b1 (ix1 h)) Wo (fun c => bo (ix1 c))
    (fun d => x (ix2 (⟨(i 0).val, (i 0).isLt⟩ : Fin 100000) d)) (⟨(i 1).val, (i 1).isLt⟩ : Fin 2)

end Cert.Network

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.BlockValue.lean ====
import proofs.«149249_g42580305772673_cont_8to1_b_1666_30_alg».proof.Proof.Gen.KernelIdeal.Skeleton
import proofs.«149249_g42580305772673_cont_8to1_b_1666_30_alg».proof.Proof.Network
import proofs.«149249_g42580305772673_cont_8to1_b_1666_30_alg».proof.Proof.LibPlainMatmul
import proofs.«149249_g42580305772673_cont_8to1_b_1666_30_alg».proof.Proof.LibRowOps
import Idealize.ShloMosaic.Lib.Pipeline.Value
import Idealize.ShloMosaic.Lib.ValueIdx
import Idealize.ShloMosaic.PureOps.Ideal.Laws

set_option maxRecDepth 16384

noncomputable section

/-! The value the block function stores, read at one entry: row `c`, column `q` of the 2 × 5120 result block is the
    network's value of class `c` on column `q` of the 369 × 5120 input slab. Each product into the zero accumulator is a
    plain sum over the shared axis, each bias column is stretched along the columns, and the rectifier acts entry by entry. -/

namespace Cert.KernelIdeal.BlockValue

open Cert.KernelIdeal Cert.KernelIdeal.Gen Idealize.ShloMosaic Idealize.ShloMosaic.ValueIdx

theorem dims1_eq : dot_S64x369_S369x5120_S64x5120_1_0_0_1_n_n
    = Cert.PointConv.plainDims 64 369 5120 Facts₀.dot_S64x369_S369x5120_S64x5120_1_0_0_1_n_n_wf := rfl

theorem dims2_eq : dot_S2x64_S64x5120_S2x5120_1_0_0_1_n_n
    = Cert.PointConv.plainDims 2 64 5120 Facts₀.dot_S2x64_S64x5120_S2x5120_1_0_0_1_n_n_wf := rfl

/-- The stored block at `(c, q)`: the network's class-`c` value on column `q` of the slab. -/
theorem pay_apply (v0 : Vec Ideal S64x369 .f32) (v1 : Vec Ideal S369x5120 .f32) (v4 : Vec Ideal S64x1 .f32)
    (v10 : Vec Ideal S2x64 .f32) (v12 : Vec Ideal S2x1 .f32) (c : Fin 2) (q : Fin 5120) :
    k0_pay1 (F := Ideal) v0 v1 v4 v10 v12 (ix2 c q)
      = Cert.Network.colNet v0 (fun h => v4 (ix2 h (0 : Fin 1))) v10 (fun c => v12 (ix2 c (0 : Fin 1)))
          (fun d => v1 (ix2 d q)) c := by
  unfold k0_pay1 Cert.Network.colNet
  simp only [shapeCast_self]
  rw [ValueIdx.addf_apply]
  refine (congrArg₂ (· + ·) (Cert.PointConv.plainMatmul_zero_apply Facts₀.dot_S2x64_S64x5120_S2x5120_1_0_0_1_n_n_wf none v10 _ c q)
    (Cert.RowOps.broadcastTo_a1_ab_apply v12 _ c q)).trans ?_
  refine congrArg (· + v12 (ix2 c (0 : Fin 1))) (Finset.sum_congr rfl fun h _ => ?_)
  refine congrArg (v10 (ix2 c h) * ·) ?_
  rw [ValueIdx.maximumf_apply, ValueIdx.addf_apply]
  exact congrArg₂ max (congrArg₂ (· + ·) (Cert.PointConv.plainMatmul_zero_apply Facts₀.dot_S64x369_S369x5120_S64x5120_1_0_0_1_n_n_wf none v0 v1 h q)
    (Cert.RowOps.broadcastTo_a1_ab_apply v4 _ h q)) rfl

end Cert.KernelIdeal.BlockValue

end
-- ==== Proof.IdealValue.lean ====
import proofs.«149249_g42580305772673_cont_8to1_b_1666_30_alg».proof.Proof.IdealData
import proofs.«149249_g42580305772673_cont_8to1_b_1666_30_alg».proof.Proof.BlockValue
import Idealize.ShloMosaic.Lib.Pipeline.Value
import Idealize.ShloMosaic.Lib.ValueLayout

set_option maxRecDepth 16384

noncomputable section

/-! What the pipeline's result array holds after the run, over the extended reals.

    The weights' and biases' blocks are their whole arrays. Column `q` of the slab at point `t`, for `q` inside the
    array, is column `5120·t + q` of the transposed input. So what point `t` writes back — the stored block cut at the
    array's end — is the block of ONE function of the arrays, `outT`: at `(c, n)`, class `c` of the sample in column `n`.
    The cut blocks cover all 100000 columns (column `n` lies in the block of point `n / 5120`), so the array ends at `outT`. -/

namespace Cert.KernelIdeal.Result

open Cert.KernelIdeal Cert.KernelIdeal.Gen Cert.KernelIdeal.Body Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Idealize.ShloMosaic.ValueIdx

variable (m : (ℓ : Loc nD τ sig) → Buf (Elt Ideal) ℓ)

/-- The printed index maps and cuts, decided over the grid: the slab and the result move one block of 5120 columns per
    point, every other window stays at block zero, and the result's block ends at column `5120·t + 5120` or at the
    array's end, whichever comes first. -/
theorem idx_facts : ∀ t : Fin cfg0.N,
    win0_0.index t 0 = 0 ∧ win0_0.index t 1 = t.val
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = t.val
    ∧ t.val * 5120 + win0_5.xsize (grid0.coords t) 1 = min (t.val * 5120 + 5120) 100000 :=
  (by decide +kernel : ∀ t : Fin grid0.N, _)

/-- The first layer's weights are found whole. -/
theorem weights1_eq (c : Dev nD) (t : Fin cfg0.N) : (iblk m c 1 t : S64x369.Idx → Elt Ideal .f32) = V m c main_arg1 := by
  funext y
  obtain ⟨_, _, i10, i11, _⟩ := idx_facts t
  show V m c main_arg1 (((cfg0.win 1).blk t).view.emb y) = V m c main_arg1 y
  refine congrArg _ (funext fun a => Fin.ext ?_)
  match a with
  | ⟨0, _⟩ => show win0_1.index t 0 * 64 + 1 * (y 0).val = (y 0).val; omega
  | ⟨1, _⟩ => show win0_1.index t 1 * 369 + 1 * (y 1).val = (y 1).val; omega

/-- The first layer's bias column is found whole. -/
theorem bias1_eq (c : Dev nD) (t : Fin cfg0.N) : (iblk m c 2 t : S64x1.Idx → Elt Ideal .f32) = V m c main_v1 := by
  funext y
  obtain ⟨_, _, _, _, i20, i21, _⟩ := idx_facts t
  show V m c main_v1 (((cfg0.win 2).blk t).view.emb y) = V m c main_v1 y
  refine congrArg _ (funext fun a => Fin.ext ?_)
  match a with
  | ⟨0, _⟩ => show win0_2.index t 0 * 64 + 1 * (y 0).val = (y 0).val; omega
  | ⟨1, _⟩ => show win0_2.index t 1 * 1 + 1 * (y 1).val = (y 1).val; omega

/-- The output layer's weights are found whole. -/
theorem weights2_eq (c : Dev nD) (t : Fin cfg0.N) : (iblk m c 3 t : S2x64.Idx → Elt Ideal .f32) = V m c main_arg3 := by
  funext y
  obtain ⟨_, _, _, _, _, _, i30, i31, _⟩ := idx_facts t
  show V m c main_arg3 (((cfg0.win 3).blk t).view.emb y) = V m c main_arg3 y
  refine congrArg _ (funext fun a => Fin.ext ?_)
  match a with
  | ⟨0, _⟩ => show win0_3.index t 0 * 2 + 1 * (y 0).val = (y 0).val; omega
  | ⟨1, _⟩ => show win0_3.index t 1 * 64 + 1 * (y 1).val = (y 1).val; omega

/-- The output layer's bias column is found whole. -/
theorem bias2_eq (c : Dev nD) (t : Fin cfg0.N) : (iblk m c 4 t : S2x1.Idx → Elt Ideal .f32) = V m c main_v2 := by
  funext y
  obtain ⟨_, _, _, _, _, _, _, _, i40, i41, _⟩ := idx_facts t
  show V m c main_v2 (((cfg0.win 4).blk t).view.emb y) = V m c main_v2 y
  refine congrArg _ (funext fun a => Fin.ext ?_)
  match a with
  | ⟨0, _⟩ => show win0_4.index t 0 * 2 + 1 * (y 0).val = (y 0).val; omega
  | ⟨1, _⟩ => show win0_4.index t 1 * 1 + 1 * (y 1).val = (y 1).val; omega

/-- A column of the slab inside the array is the transposed input's column `5120·t + q`. -/
theorem slab_col (c : Dev nD) (t : Fin cfg0.N) (d : Fin 369) (q : Fin 5120)
    (hq : q.val < win0_5.xsize (grid0.coords t) 1) (hn : t.val * 5120 + q.val < 100000) :
    slab m c t (ix2 d q) = V m c main_v0 (ix2 d (⟨t.val * 5120 + q.val, hn⟩ : Fin 100000)) := by
  obtain ⟨e0, e1, e2⟩ := clip_facts t
  obtain ⟨i00, i01, _⟩ := idx_facts t
  have h0 : d.val < win0_0.xsize (grid0.coords t) 0 := by rw [e0]; exact d.isLt
  have h1 : q.val < win0_0.xsize (grid0.coords t) 1 := by rw [e1]; exact hq
  let j0 : (win0_0.xblock (grid0.coords t)).Idx := fun a => match a with
    | ⟨0, _⟩ => ⟨d.val, h0⟩
    | ⟨1, _⟩ => ⟨q.val, h1⟩
  have hx : (ix2 d q : S369x5120.Idx) = win0_0.xinj (grid0.coords t) j0 :=
    funext fun a => Fin.ext (by match a with | ⟨0, _⟩ => rfl | ⟨1, _⟩ => rfl)
  unfold slab
  rw [hx, win0_0.fill_xinj]
  show V m c main_v0 (((cfg0.win 0).blk t).view.emb j0) = _
  refine congrArg _ (funext fun a => Fin.ext ?_)
  match a with
  | ⟨0, _⟩ => show win0_0.index t 0 * 369 + 1 * d.val = d.val; omega
  | ⟨1, _⟩ => show win0_0.index t 1 * 5120 + 1 * q.val = t.val * 5120 + q.val; rw [i01]; omega

/-- The transposed result as one function of the arrays the region finds: at `(c, n)`, class `c` of the sample in column `n`
    of the transposed input. -/
def outT (xT : S369x100000.Idx → Elt Ideal .f32) (W1 : S64x369.Idx → Elt Ideal .f32) (b1c : S64x1.Idx → Elt Ideal .f32)
    (Wo : S2x64.Idx → Elt Ideal .f32) (boc : S2x1.Idx → Elt Ideal .f32) : S2x100000.Idx → Elt Ideal .f32 :=
  fun i => Cert.Network.colNet W1 (fun h => b1c (ix2 h (0 : Fin 1))) Wo (fun c => boc (ix2 c (0 : Fin 1)))
    (fun d => xT (ix2 d (⟨(i 1).val, (i 1).isLt⟩ : Fin 100000))) (⟨(i 0).val, (i 0).isLt⟩ : Fin 2)

/-- WHAT POINT `t` WRITES BACK is block `t` of `outT`, cut at the array's end. -/
theorem flushed_eq (c : Dev nD) (t : Fin cfg0.N) :
    (dats m 0 c).flushed 5 t = ((cfg0.win 5).blk t).view.read (Elt Ideal)
      (outT (V m c main_v0) (V m c main_arg1) (V m c main_v1) (V m c main_arg3) (V m c main_v2)) := by
  obtain ⟨e0, e1, e2⟩ := clip_facts t
  obtain ⟨_, _, _, _, _, _, _, _, _, _, i50, i51, hx5⟩ := idx_facts t
  funext j
  have hj0 : (j 0).val < 2 := by
    have h : (j 0).val < win0_5.xsize (grid0.coords t) 0 := (j 0).isLt
    rw [e2] at h; exact h
  have hjx : (j 1).val < win0_5.xsize (grid0.coords t) 1 := (j 1).isLt
  have hj1 : (j 1).val < 5120 := Nat.lt_of_lt_of_le hjx (win0_5.xsize_le (grid0.coords t) 1)
  have hn : t.val * 5120 + (j 1).val < 100000 := by omega
  have hx : win0_5.xinj (grid0.coords t) j = ix2 (⟨(j 0).val, hj0⟩ : Fin 2) (⟨(j 1).val, hj1⟩ : Fin 5120) :=
    funext fun a => Fin.ext (by match a with | ⟨0, _⟩ => rfl | ⟨1, _⟩ => rfl)
  have hemb : ((cfg0.win 5).blk t).view.emb j
      = (ix2 (⟨(j 0).val, hj0⟩ : Fin 2) (⟨t.val * 5120 + (j 1).val, hn⟩ : Fin 100000) : S2x100000.Idx) := by
    funext a; apply Fin.ext
    match a with
    | ⟨0, _⟩ => show win0_5.index t 0 * 2 + 1 * (j 0).val = (j 0).val; omega
    | ⟨1, _⟩ => show win0_5.index t 1 * 5120 + 1 * (j 1).val = t.val * 5120 + (j 1).val; rw [i51]; omega
  show k0_pay1 (iblk m c 1 t) (slab m c t) (iblk m c 2 t) (iblk m c 3 t) (iblk m c 4 t) (win0_5.xinj (grid0.coords t) j)
      = outT (V m c main_v0) (V m c main_arg1) (V m c main_v1) (V m c main_arg3) (V m c main_v2) (((cfg0.win 5).blk t).view.emb j)
  rw [hx, hemb, BlockValue.pay_apply, weights1_eq, bias1_eq, weights2_eq, bias2_eq]
  exact Cert.Network.colNet_congr _ _ _ _ (fun d => slab_col m c t d ⟨(j 1).val, hj1⟩ hjx hn) _

/-- An index of the array is in point `t`'s cut block iff each coordinate is in the block's range on its axis. -/
theorem mem_blk (t : Fin cfg0.N) (i : S2x100000.Idx) :
    i ∈ ((cfg0.win 5).blk t).view.set ↔ ∀ a : Fin 2, win0_5.index t a * S2x5120.size a ≤ (i a).val
      ∧ (i a).val < win0_5.index t a * S2x5120.size a + win0_5.xsize (grid0.coords t) a := by
  show i ∈ ((View.whole main_v3).slice (win0_5.rect t)).set ↔ _
  rw [View.set_slice_whole, Rect.mem_set_unit]
  exact Iff.rfl

/-- Every column is in the cut block of the point `n / 5120`. -/
theorem cover (i : S2x100000.Idx) :
    ∃ t : Fin cfg0.N, (cfg0.win 5).flush t = true ∧ i ∈ ((cfg0.win 5).blk t).view.set := by
  have hi0 : (i 0).val < 2 := (i 0).isLt
  have hi1 : (i 1).val < 100000 := (i 1).isLt
  let t : Fin cfg0.N := ⟨(i 1).val / 5120, by rw [show cfg0.N = 20 from N_0]; omega⟩
  obtain ⟨_, _, e2⟩ := clip_facts t
  obtain ⟨_, _, _, _, _, _, _, _, _, _, i50, i51, hx5⟩ := idx_facts t
  have ht : t.val = (i 1).val / 5120 := rfl
  refine ⟨t, flush0_5 t, ?_⟩
  rw [mem_blk]
  intro a
  match a with
  | ⟨0, _⟩ =>
    show win0_5.index t 0 * 2 ≤ (i 0).val ∧ (i 0).val < win0_5.index t 0 * 2 + win0_5.xsize (grid0.coords t) 0
    rw [i50, e2]; omega
  | ⟨1, _⟩ =>
    show win0_5.index t 1 * 5120 ≤ (i 1).val ∧ (i 1).val < win0_5.index t 1 * 5120 + win0_5.xsize (grid0.coords t) 1
    rw [i51]; omega

/-- THE ARRAY after the run: `outT` of the arrays the region finds. -/
theorem final (c : Dev nD) : (dats m 0 c).arrAt 5 cfg0.N
    = outT (V m c main_v0) (V m c main_arg1) (V m c main_v1) (V m c main_arg3) (V m c main_v2) :=
  (dats m 0 c).arrAt_eq_of_cover 5 _ (fun t _ => flushed_eq m c t) cover

end Cert.KernelIdeal.Result

end
-- ==== Proof.IdealRun.lean ====
import proofs.«149249_g42580305772673_cont_8to1_b_1666_30_alg».proof.Proof.IdealObligation
import proofs.«149249_g42580305772673_cont_8to1_b_1666_30_alg».proof.Proof.IdealValue
import Idealize.ShloMosaic.Lib.Pipeline.FrameSuffix
import Idealize.ShloMosaic.Lib.Pipeline.Value
import Idealize.ShloMosaic.Lib.StableHlo.Run
import Idealize.ShloMosaic.Lib.ValueLayout

set_option maxRecDepth 16384

noncomputable section

/-! The idealized kernel's run and the value of its result.

    Over the extended reals a matrix product into the zero accumulator is, entry by entry, a sum over the shared axis, so
    column `q` of the stored block is the network applied to column `q` of the slab: the proof data name the result exactly.
    Point `t` writes back columns `5120·t …` of the transposed result, cut at column 100000; the twenty cut blocks cover
    the array, so it ends holding, at `(c, n)`, class `c` of sample `n`; the transposition after the region turns that
    into the network over the batch. -/

namespace Cert.KernelIdeal.Run

open Cert.KernelIdeal Cert.KernelIdeal.Gen Cert.KernelIdeal.Body Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Idealize.ShloMosaic.ValueIdx

variable (m : (ℓ : Loc nD τ sig) → Buf (Elt Ideal) ℓ) (ρ : Dev nD → PrngReg)

/-- Over the extended reals each column of the stored block is the network of the same column of the slab. -/
theorem columnLocal : ColumnLocal Ideal := fun X1 X0 X0' X2 X3 X4 c q h => by
  rw [BlockValue.pay_apply, BlockValue.pay_apply]
  exact Cert.Network.colNet_congr _ _ _ _ h c

set_option backward.isDefEq.respectTransparency.types false in
/-- The run: every array of the pipeline ends at what the proof data compute, every other buffer at what the line after
    the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => body_obligation m columnLocal c)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

/-- The frame: the argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (fun _ _ => rfl) (run_main m ρ)

/-- The region finds the sample array transposed, -/
theorem entry_xT (c : Dev nD) : (V m c main_v0 : S369x100000.Idx → Elt Ideal .f32)
    = transpose S369x100000 [1, 0] (m ((c.tc : Thread nD τ).loc main_arg0)) Facts₀.transposes_S100000x369_S369x100000_1_0 := by
  show StableHlo.after hostOps0 (fun b => m (c, b)) (Proc.devRef .tc main_v0) = _
  after_results

/-- the first bias as a column, -/
theorem entry_b1 (c : Dev nD) : (V m c main_v1 : S64x1.Idx → Elt Ideal .f32)
    = shapeCast S64x1 (m ((c.tc : Thread nD τ).loc main_arg2)) Facts₀.shapeCasts_S64_S64x1 := by
  show StableHlo.after hostOps0 (fun b => m (c, b)) (Proc.devRef .tc main_v1) = _
  after_results
  rfl

/-- and the output bias as a column. -/
theorem entry_bo (c : Dev nD) : (V m c main_v2 : S2x1.Idx → Elt Ideal .f32)
    = shapeCast S2x1 (m ((c.tc : Thread nD τ).loc main_arg4)) Facts₀.shapeCasts_S2_S2x1 := by
  show StableHlo.after hostOps0 (fun b => m (c, b)) (Proc.devRef .tc main_v2) = _
  after_results
  rfl

/-- The program's result — the pipeline's array transposed back — is the network over the batch. -/
theorem result_eq (c : Dev nD) :
    (Pipeline.afterTail₀ cfgs (dats m) 0 (V0 m) [hostOps1] c main_v4 : S100000x2.Idx → Elt Ideal .f32)
      = Cert.Network.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v4) = _
  after_results
  rw [(Pipeline.withArrays_arr spec0 launch0.win.arr_inj c _ _ 5).trans (Result.final m c)]
  funext i
  obtain ⟨n, k, rfl⟩ : ∃ (n : Fin 100000) (k : Fin 2), i = ix2 n k := ⟨i 0, i 1, eq_ix2 i⟩
  rw [transpose_ix2_apply]
  unfold Result.outT Cert.Network.net
  rw [V_main_arg1, V_main_arg3, entry_xT, entry_b1, entry_bo]
  refine congrArg₂ (fun (b : Fin 64 → EReal) (col : Fin 369 → EReal) =>
      Cert.Network.colNet (m ((c.tc : Thread nD τ).loc main_arg1)) b (m ((c.tc : Thread nD τ).loc main_arg3))
        (fun c' => shapeCast S2x1 (m ((c.tc : Thread nD τ).loc main_arg4)) Facts₀.shapeCasts_S2_S2x1 (ix2 c' (0 : Fin 1))) col k)
      (funext fun h => Cert.RowOps.shapeCast_a_a1_apply _ _ h 0) (funext fun d => transpose_ix2_apply _ _ d n) |>.trans ?_
  exact congrArg (fun (b : Fin 2 → EReal) =>
      Cert.Network.colNet (m ((c.tc : Thread nD τ).loc main_arg1)) (fun h => m ((c.tc : Thread nD τ).loc main_arg2) (ix1 h))
        (m ((c.tc : Thread nD τ).loc main_arg3)) b (fun d => m ((c.tc : Thread nD τ).loc main_arg0) (ix2 n d)) k)
      (funext fun c' => Cert.RowOps.shapeCast_a_a1_apply _ _ c' 0)

/-- The run, read: the result at the network over the batch, the arguments unchanged. -/
theorem run_value : θ_run defs (onTc (τ := τ) (main (F := Ideal))) ⟨m, fun _ => 0, ρ⟩ (fun r => ∀ c : Dev nD,
      r.2.mem ((c.tc : Thread nD τ).loc main_v4)
        = Cert.Network.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans (V_main_arg1 m c)),
      ((h c).2 main_arg2 (Pipeline.mem_restRefs_of main_arg2 (by decide) (by decide))).trans (W_main_arg2 m (dats m) c),
      ((h c).1 3).trans (((dats m 0 c).arrAt_in 3 rfl _).trans (V_main_arg3 m c)),
      ((h c).2 main_arg4 (Pipeline.mem_restRefs_of main_arg4 (by decide) (by decide))).trans (W_main_arg4 m (dats m) c)⟩)
    (run_main m ρ)

end Cert.KernelIdeal.Run

end
-- ==== Proof.RefValue.lean ====
import proofs.«149249_g42580305772673_cont_8to1_b_1666_30_alg».proof.Proof.Gen.ReferenceIdeal.Read
import proofs.«149249_g42580305772673_cont_8to1_b_1666_30_alg».proof.Proof.Network
import Idealize.ShloMosaic.Lib.ValueIdx

set_option maxRecDepth 16384

noncomputable section

/-! The reference's result, read one entry at a time, is the network over the batch: its two products are sums over the
    shared axis with the sample on the left, its biases are broadcast along the batch, its rectifier compares with the
    same zero word. -/

namespace Cert.ReferenceIdeal.RefValue

open Cert.ReferenceIdeal Cert.ReferenceIdeal.Gen Cert.ReferenceIdeal.Read Idealize.ShloMosaic Idealize.ShloMosaic.ValueIdx

/-- Entry `(n, c)` of the reference's result, with the sample on the left of every product. -/
theorem ref_apply (x0 : (⟨S100000x369, .f32⟩ : BufTy).Contents (Elt Ideal)) (x1 : (⟨S64x369, .f32⟩ : BufTy).Contents (Elt Ideal))
    (x2 : (⟨S64, .f32⟩ : BufTy).Contents (Elt Ideal)) (x3 : (⟨S2x64, .f32⟩ : BufTy).Contents (Elt Ideal))
    (x4 : (⟨S2, .f32⟩ : BufTy).Contents (Elt Ideal)) (n : Fin 100000) (c : Fin 2) :
    val_main_v11 (F := Ideal) x0 x1 x2 x3 x4 (ix2 n c)
      = (∑ h : Fin 64, max ((∑ d : Fin 369, x0 (ix2 n d) * x1 (ix2 h d)) + x2 (ix1 h)) Cert.Network.zeroLit * x3 (ix2 c h))
        + x4 (ix1 c) := by
  rw [val_main_v11_apply, val_main_v8_apply, val_main_v10_apply, val_main_v9_apply]
  simp only [Ideal.addf_def]
  refine congrArg₂ (· + ·) (Finset.sum_congr rfl fun h _ => ?_)
    (congrArg x4 (funext fun a => Fin.ext (by match a with | ⟨0, _⟩ => rfl)))
  rw [val_main_v6_apply, val_main_v7_apply, val_main_v4_apply, val_main_v5_apply, val_main_cst_apply, val_main_v1_apply,
    val_main_v3_apply, val_main_v2_apply]
  simp only [Ideal.addf_def, Ideal.maximumf_def, Ideal.ofBits_def]
  refine congrArg₂ (· * ·) (congrArg₂ max (congrArg₂ (· + ·) (Finset.sum_congr rfl fun d _ => ?_)
      (congrArg x2 (funext fun a => Fin.ext (by match a with | ⟨0, _⟩ => rfl)))) rfl)
    (congrArg x3 (funext fun a => Fin.ext (by match a with | ⟨0, _⟩ => rfl | ⟨1, _⟩ => rfl)))
  rw [val_main_v0_apply]
  exact congrArg₂ (· * ·) (congrArg x0 (funext fun a => Fin.ext (by match a with | ⟨0, _⟩ => rfl | ⟨1, _⟩ => rfl)))
    (congrArg x1 (funext fun a => Fin.ext (by match a with | ⟨0, _⟩ => rfl | ⟨1, _⟩ => rfl)))

/-- The reference's result is the network over the batch. -/
theorem ref_eq (x0 : (⟨S100000x369, .f32⟩ : BufTy).Contents (Elt Ideal)) (x1 : (⟨S64x369, .f32⟩ : BufTy).Contents (Elt Ideal))
    (x2 : (⟨S64, .f32⟩ : BufTy).Contents (Elt Ideal)) (x3 : (⟨S2x64, .f32⟩ : BufTy).Contents (Elt Ideal))
    (x4 : (⟨S2, .f32⟩ : BufTy).Contents (Elt Ideal)) :
    val_main_v11 (F := Ideal) x0 x1 x2 x3 x4 = Cert.Network.net x0 x1 x2 x3 x4 := by
  funext i
  obtain ⟨n, c, rfl⟩ : ∃ (n : Fin 100000) (c : Fin 2), i = ix2 n c := ⟨i 0, i 1, eq_ix2 i⟩
  rw [ref_apply]
  exact Cert.Network.colNet_sample_left x1 (fun h => x2 (ix1 h)) x3 (fun c => x4 (ix1 c)) (fun d => x0 (ix2 n d)) c

end Cert.ReferenceIdeal.RefValue

end
-- ==== Proof.lean ====
/-
  A two-layer perceptron over a batch of 100000 samples, `relu (x · W1ᵀ + b1) · W_outᵀ + b_out`, computed by one
  pipelined kernel in the transposed frame — `W_out · relu (W1 · xᵀ + b1) + b_out` over twenty slabs of 5120 columns, the
  last one overhanging the array by 2400 columns — against the same formula written with plain array operations.

  Over the extended reals every format change is the identity and every matrix product is, entry by entry, the sum over
  the shared axis, so entry `(n, c)` of either result is
      (Σ_h W_out(c,h) · max (Σ_d W1(h,d) · x(n,d) + b1(h), 0)) + b_out(c);
  the two programs differ only in which factor of each product stands on the left, and multiplication of extended reals
  is commutative: no finiteness of the inputs is used. What the kernel computes in the columns past the array's end is
  never written back. The ideal pass rewrote nothing, so the sanctioned-idealization claim is trivial.

  The frames: the idealized kernel's from the run that also names its result; the printed kernel's (at the bit patterns,
  where a matrix product is not known to act column by column) from a run that forgets the result's staging buffer; the
  reference's from its run with the result dropped.
-/
import proofs.«149249_g42580305772673_cont_8to1_b_1666_30_alg».proof.Defs
import proofs.«149249_g42580305772673_cont_8to1_b_1666_30_alg».proof.Proof.Gen.Kernel
import proofs.«149249_g42580305772673_cont_8to1_b_1666_30_alg».proof.Proof.Gen.KernelIdeal
import proofs.«149249_g42580305772673_cont_8to1_b_1666_30_alg».proof.Proof.Gen.ReferenceIdeal
import proofs.«149249_g42580305772673_cont_8to1_b_1666_30_alg».proof.Proof.Gen.Pre_finite_inputs
import proofs.«149249_g42580305772673_cont_8to1_b_1666_30_alg».proof.Proof.Gen.ReferenceIdeal.Run
import proofs.«149249_g42580305772673_cont_8to1_b_1666_30_alg».proof.Proof.Gen.ReferenceIdeal.Read
import proofs.«149249_g42580305772673_cont_8to1_b_1666_30_alg».proof.Proof.BitsFrame
import proofs.«149249_g42580305772673_cont_8to1_b_1666_30_alg».proof.Proof.IdealRun
import proofs.«149249_g42580305772673_cont_8to1_b_1666_30_alg».proof.Proof.RefValue

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Run.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the network over the batch in their result: the kernel's run names it, and the
    reference's composed term is it entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
